-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 9
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S1x128, .f32⟩
  | .hbm, ⟨8, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S400x128, .f32⟩
  | .local _ .vmem, ⟨9, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def k0_off1 (i : grid0.Coords) (c0_i32 : BitVec 32) : Fin 2 → Nat :=
  let arg0 : BitVec 32 := BitVec.ofNat 32 (i 0).val
  let c400_i32 : BitVec 32 := 400#32
  let v6 : BitVec 32 := Scalar.muli arg0 c400_i32
  let v7 : BitVec 32 := Scalar.addi v6 c0_i32
  let v8 : Index := Scalar.indexCast v7
  let c0_6 : Index := 0#32
  ![v8.toNat, 0]
def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x128_S128x128_1_0 : S128x128.Transposes [1, 0] S128x128
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S200x128 : 0 < S200x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S400x128_S200x128_0_0 : ∀ a, (![0, 0] : Fin 2 → Nat) a + S200x128.size a ≤ S400x128.size a
  inb_S400x128_S200x128_200_0 : ∀ a, (![200, 0] : Fin 2 → Nat) a + S200x128.size a ≤ S400x128.size a
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ (r : Fin 2), ∀ a, (k0_off1 i (BitVec.ofNat 32 (200 * r.val))) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 14
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10000x128, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S128x128, .f32⟩
  | .hbm, ⟨12, _⟩ => ⟨S10000x128, .f32⟩
  | .hbm, ⟨13, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibFrameShared.lean ====
/-
  The frame run of a one-region pipeline whose INPUT windows may share an array.

  A pallas_call may be handed one array through several input windows (the same matrix read at two different
  block offsets, say). The pipeline then holds that array once per window, each at a fraction of the full share,
  and the fractions together make the whole. Everything else is as for a kernel whose arrays are distinct: the
  kernel names no semaphore of its own, keeps nothing between grid points beyond the scoped buffers the pipeline does
  not stage, and @main reaches the region holding the unscoped buffers at contents `V`.

  The statement: from the body obligation at every point, and from HOW the distinct buffers behind the arrays,
  each whole at the full share, are dealt among the windows (`hsplit`), every weakly fair execution terminates
  with each window's array at the contents the proof data computes (`Dat.arrAt … N`) and every unscoped buffer that is
  no window's array as the region found it.
-/
import Idealize.ShloMosaic.Lib.Pipeline.Frame

noncomputable section

namespace Idealize.ShloMosaic.Pipeline.SharedFrame

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run, the arrays' full shares dealt among the windows by `hsplit`. The invariant between points is
    the scoped buffers the pipeline does not stage, at any contents (`hΦ`); the generator register is let go. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  refine θ_run_region_noSem_shared cfgs dats () hinj p hw emb₁ defs₀ 𝒱₀ m g main hbody hne harr hstage howed
    (initOf (cells cfgs hinj) (launchToks cfgs hinj)) .rfl V hmain hsplit
    (fun _ => (BI.emp : sProp 𝕄)) (fun _ => (BI.emp : sProp 𝕄))
    (fun c => unscopedRest (Ix := Unit) (Name := ℕ) (U := UR sig nD τ) (Lvl := ℕ) (cfgs p).spec c (V c))
    (fun c => by iintro H; isplitr; · iempintro
                 iexact H)
    (fun c => by rw [hΦ]; iintro ⟨-, H⟩; iexact H)
    (fun c => by rw [hΦ]; iintro H; isplitr; · iempintro
                 iexact H)
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

/-- The pipeline's `arrays` are whole-buffer points-tos, each at its window's own share, when every window's array
    is a whole buffer: the library's `arrays_eq` without the hypothesis that every share is the full one. -/
theorem arrays_eq_shares {cfg : Cfg sig Λ₀} {c : Dev nD} (dat : Dat τ Val Unit ℕ (UR sig nD τ) ℕ cfg c)
    (harr : ∀ w, (cfg.spec w).arr.IsWhole)
    (F : (w : Fin cfg.W) → Buf Val ((cfg.win w).arr.view.loc (c.tc : Thread nD τ))) :
    dat.arrays F = bigSep Finset.univ fun w => (((c.tc : Thread nD τ).loc (arrRef cfg.spec w)) ↦{dat.share w} F w : sProp 𝕄) := by
  unfold Dat.arrays
  exact Idealize.SL.BI.bigSep_congr fun w _ => by rw [(harr w).set_eq_univ]

end Idealize.ShloMosaic.Pipeline.SharedFrame

end
-- ==== Proof.BitsEntry.lean ====
/-
  The region's entry. @main is three host operations — the transposes of the two weight matrices and the
  bias vector reshaped to one row — followed by the one kernel region. This module says what each TensorCore
  buffer holds when the region is entered (`V`: the launch memory after those three operations), that none of
  them writes an argument array, what block of its array each window shows at a grid point (`iblk`), and that
  an input window's staging buffer holds that block at every point, whether the pipeline fetched it there or kept
  it from the point before (the four windows with a constant block index are fetched once).
-/
import proofs.«146117_g21028159881243_cont_8to1_1723_11_alg».proof.Proof.Gen.Kernel.Launch
import proofs.«146117_g21028159881243_cont_8to1_1723_11_alg».proof.Proof.Gen.Kernel.Skeleton
import proofs.«146117_g21028159881243_cont_8to1_1723_11_alg».proof.Proof.Gen.Kernel.Points
import proofs.«146117_g21028159881243_cont_8to1_1723_11_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch memory after the three host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, for any proof data whose array is the
    entry contents and whose body leaves the block in place: fetched there, it is the block; not fetched, the block
    index has not moved since the point before. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.BitsBody.lean ====
/-
  The kernel body at one grid point. The body sees seven whole staging buffers: two 200-row blocks of the
  adjacency matrix (the even and the odd half of the point's 400 rows), the whole feature matrix, the two
  transposed weight matrices, the bias row, and the 400-row output block. For each half it multiplies the
  adjacency block by the features, that by the first weight matrix, adds the point's own 200 feature rows times
  the second weight matrix, adds the bias row, and stores the 200 × 128 result into its half of the output block.
  The two stores tile the output block, so after the body the block is determined by the inputs: `outBlk`.
  (The body also loads each half of the output block before storing into it; the loaded values are not used.)
-/
import proofs.«146117_g21028159881243_cont_8to1_1723_11_alg».proof.Proof.BitsEntry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev rAdj : Rect S200x10000 := Rect.unit (s := S200x10000) ![0, 0] S200x10000.size inb_S200x10000_S200x10000_0_0
abbrev rFeat : Rect S10000x128 := Rect.unit (s := S10000x128) ![0, 0] S10000x128.size inb_S10000x128_S10000x128_0_0
abbrev rWt : Rect S128x128 := Rect.unit (s := S128x128) ![0, 0] S128x128.size inb_S128x128_S128x128_0_0
abbrev rBias : Rect S1x128 := Rect.unit (s := S1x128) ![0, 0] S1x128.size inb_S1x128_S1x128_0_0
/-- The point's own feature rows: rows 400·i … 400·i + 199 for the even half, -/
abbrev rOwnLo (i : grid0.Coords) : Rect S10000x128 := Rect.unit (s := S10000x128) (k0_off1 i 0#32) S200x128.size (k0_off1_inb i 0)
/-- and rows 400·i + 200 … 400·i + 399 for the odd half. -/
abbrev rOwnHi (i : grid0.Coords) : Rect S10000x128 := Rect.unit (s := S10000x128) (k0_off1 i 200#32) S200x128.size (k0_off1_inb i 1)
abbrev rOutLo : Rect S400x128 := Rect.unit (s := S400x128) ![0, 0] S200x128.size inb_S400x128_S200x128_0_0
abbrev rOutHi : Rect S400x128 := Rect.unit (s := S400x128) ![200, 0] S200x128.size inb_S400x128_S200x128_200_0

/-! ## What the body leaves in the output block -/

/-- The output block after the body, from the input blocks: its two stores as pieces, the last first. -/
def outBlk (i : grid0.Coords) (a0 a1 : Vec F S200x10000 .f32) (x : Vec F S10000x128 .f32) (wl wr : Vec F S128x128 .f32) (b : Vec F S1x128 .f32) :
    Vec F S400x128 .f32 :=
  View.canon [⟨rOutHi, k0_pay1 (k0_pay3 (View.ld a1 rAdj) (View.ld x rFeat) (View.ld wl rWt)) (View.ld x (rOwnHi i)) (View.ld wr rWt) (View.ld b rBias)⟩,
    ⟨rOutLo, k0_pay2 (View.ld a0 rAdj) (View.ld x rFeat) (View.ld wl rWt) (View.ld x (rOwnLo i)) (View.ld wr rWt) (View.ld b rBias)⟩]

/-- The two stores tile the block, so they cover it. -/
theorem cover_out (p1 p0 : Vec F S200x128 .f32) (y : S400x128.Idx) :
    ∃ pc ∈ ([⟨rOutHi, p1⟩, ⟨rOutLo, p0⟩] : List (View.Piece (Elt F) S400x128 .f32)), y ∈ pc.1.set :=
  View.cover_of_tiled [⟨rOutHi, p1⟩, ⟨rOutLo, p0⟩] S200x128.size (by rfl) y

/-! ## The body's triple -/

set_option maxHeartbeats 4000000 in
/-- On whole staging buffers, the inputs' at contents `a0 … b` and the output's at anything, the body runs to the
    continuation holding the inputs' as they were and the output's at `outBlk` of them. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S400x128 .f32) (harg7 : arg7.IsWhole)
    (a0 a1 : Vec F S200x10000 .f32) (x : Vec F S10000x128 .f32) (wl wr : Vec F S128x128 .f32) (b : Vec F S1x128 .f32) (K : PUnit → sProp 𝕄) :
    iprop(owns (c : Thread nD τ) arg1 fullShare a0 ∗ owns (c : Thread nD τ) arg2 fullShare a1 ∗ owns (c : Thread nD τ) arg3 fullShare x
        ∗ owns (c : Thread nD τ) arg4 fullShare wl ∗ owns (c : Thread nD τ) arg5 fullShare wr ∗ owns (c : Thread nD τ) arg6 fullShare b
        ∗ (∃ d, owns (c : Thread nD τ) arg7 fullShare d)
        ∗ (iprop(owns (c : Thread nD τ) arg1 fullShare a0 ∗ owns (c : Thread nD τ) arg2 fullShare a1 ∗ owns (c : Thread nD τ) arg3 fullShare x
            ∗ owns (c : Thread nD τ) arg4 fullShare wl ∗ owns (c : Thread nD τ) arg5 fullShare wr ∗ owns (c : Thread nD τ) arg6 fullShare b
            ∗ owns (c : Thread nD τ) arg7 fullShare (outBlk i a0 a1 x wl wr b)) -∗ K ⟨⟩))
      ⊢ wp frame (wpE (defs₀ (F := F)) Variants.none c none) E (cc0__sage_block_kernel i arg1 harg1 arg2 harg2 arg3 harg3 arg4 harg4 arg5 harg5 arg6 harg6 arg7 harg7) K := by
  simp only [cc0__sage_block_kernel_eq_skeleton]; unfold cc0__sage_block_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _ _)

end Cert.Kernel.Hand

end
-- ==== Proof.BitsRun.lean ====
/-
  The run of the whole program. The proof data says, window by window and point by point, what the staging
  buffers hold after the body: each input window its block of the array, the output window the block the body
  computes from them (`outBlk`). The adjacency matrix is handed to the kernel through TWO input windows, so the
  pipeline holds it twice, each time at half of the full share; the two halves together are the whole matrix as the
  region finds it (`arrays_split`). With the body's triple at every point this gives the run: every weakly fair
  execution terminates, the output array ends as the blocks written back, and nothing else changes — in
  particular the five argument arrays.
-/
import proofs.«146117_g21028159881243_cont_8to1_1723_11_alg».proof.Proof.BitsBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline.SharedFrame

/-! ## The proof data -/

/-- Core `c`'s proof data: the arrays as the region finds them; after the body at point `t` each input's buffer
    at its block and the output's at `outBlk` of the input blocks; between points only the scoped buffers the pipeline
    does not stage; nothing owed; the adjacency matrix at a half share for each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (grid0.coords t) (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outBlk (grid0.coords t) (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and
    the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays' shares dealt among the windows -/

/-- The six distinct buffers behind the seven windows' arrays, each whole at the full share as the region finds them,
    make the pipeline's arrays at entry: the adjacency matrix is split into its two half shares, one per window on it;
    every other buffer goes whole to its one window. -/
theorem arrays_split (c : Dev nD) :
    (Pipeline.arrBufs spec0 c (V m c) : sProp 𝕄) ⊢ (dats m 0 c).arrays ((dats m 0 c).arrAt · 0) := by
  have himg : (Finset.univ.image (Pipeline.arrRef spec0) : Finset (Ref sig .tc))
      = [main_arg1, main_arg0, main_call0_v0, main_call0_v1, main_call0_v2, main_v0].toFinset := by decide
  have hbufs : (Pipeline.arrBufs spec0 c (V m c) : sProp 𝕄)
      = iprop((((c : Thread nD τ).loc main_arg1) ↦{fullShare} V m c main_arg1) ∗ (((c : Thread nD τ).loc main_arg0) ↦{fullShare} V m c main_arg0)
          ∗ (((c : Thread nD τ).loc main_call0_v0) ↦{fullShare} V m c main_call0_v0) ∗ (((c : Thread nD τ).loc main_call0_v1) ↦{fullShare} V m c main_call0_v1)
          ∗ (((c : Thread nD τ).loc main_call0_v2) ↦{fullShare} V m c main_call0_v2) ∗ (((c : Thread nD τ).loc main_v0) ↦{fullShare} V m c main_v0)) := by
    unfold Pipeline.arrBufs
    exact bigSep_eq_bigSepL_of_eq _ himg (by decide) _
  rw [arrays_eq_shares (dats m 0 c) arr_whole0, bigSep_W0, hbufs]
  iintro ⟨Hadj, Hx, Hwl, Hwr, Hb, Hout⟩
  ihave Hs := (pointsTo_share (PosShare.mem_left_op_right fullShare)).1 $$ Hadj
  icases Hs with ⟨HadjL, HadjR⟩
  isplitl [HadjL]; · iexact HadjL
  isplitl [HadjR]; · iexact HadjR
  isplitl [Hx]; · iexact Hx
  isplitl [Hwl]; · iexact Hwl
  isplitl [Hwr]; · iexact Hwr
  isplitl [Hb]; · iexact Hb
  iexact Hout

/-! ## The run and the frame -/

set_option backward.isDefEq.respectTransparency.types false in
/-- Every weakly fair execution of @main terminates, and every final state has each window's array at what the
    proof data computes and every other unscoped buffer as the region found it. -/
theorem run_main : θ_run defs (onTc (τ := τ) (main (F := F))) (s₀ m ρ) (Pipeline.FramePost cfgs (dats m) 0 (V m)) :=
  θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := arrays_split m) (hΦ := fun _ _ => rfl)

/-- The frame: the program runs to the end, and its five argument arrays end as they were launched. The feature
    matrix and the adjacency matrix are input windows' arrays, never written back; the two weight matrices and the
    bias vector are no window's array, and no host operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 2).trans (((dats m 0 c).arrAt_in 2 rfl _).trans ((A_eq m c 2).trans (V_main_arg0 m c))),
     ((h c).1 0).trans (((dats m 0 c).arrAt_in 0 rfl _).trans ((A_eq m c 0).trans (V_main_arg1 m c))),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c)⟩) (run_main m ρ)

end Cert.Kernel.Hand

end
-- ==== Proof.IdealEntry.lean ====
/-
  The region's entry. @main is three host operations — the transposes of the two weight matrices and the
  bias vector reshaped to one row — followed by the one kernel region. This module says what each TensorCore
  buffer holds when the region is entered (`V`: the launch memory after those three operations), that none of
  them writes an argument array, what block of its array each window shows at a grid point (`iblk`), and that
  an input window's staging buffer holds that block at every point, whether the pipeline fetched it there or kept
  it from the point before (the four windows with a constant block index are fetched once).
-/
import proofs.«146117_g21028159881243_cont_8to1_1723_11_alg».proof.Proof.Gen.KernelIdeal.Launch
import proofs.«146117_g21028159881243_cont_8to1_1723_11_alg».proof.Proof.Gen.KernelIdeal.Skeleton
import proofs.«146117_g21028159881243_cont_8to1_1723_11_alg».proof.Proof.Gen.KernelIdeal.Points
import proofs.«146117_g21028159881243_cont_8to1_1723_11_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch memory after the three host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, for any proof data whose array is the
    entry contents and whose body leaves the block in place: fetched there, it is the block; not fetched, the block
    index has not moved since the point before. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.IdealBody.lean ====
/-
  The kernel body at one grid point. The body sees seven whole staging buffers: two 200-row blocks of the
  adjacency matrix (the even and the odd half of the point's 400 rows), the whole feature matrix, the two
  transposed weight matrices, the bias row, and the 400-row output block. For each half it multiplies the
  adjacency block by the features, that by the first weight matrix, adds the point's own 200 feature rows times
  the second weight matrix, adds the bias row, and stores the 200 × 128 result into its half of the output block.
  The two stores tile the output block, so after the body the block is determined by the inputs: `outBlk`.
  (The body also loads each half of the output block before storing into it; the loaded values are not used.)
-/
import proofs.«146117_g21028159881243_cont_8to1_1723_11_alg».proof.Proof.IdealEntry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev rAdj : Rect S200x10000 := Rect.unit (s := S200x10000) ![0, 0] S200x10000.size inb_S200x10000_S200x10000_0_0
abbrev rFeat : Rect S10000x128 := Rect.unit (s := S10000x128) ![0, 0] S10000x128.size inb_S10000x128_S10000x128_0_0
abbrev rWt : Rect S128x128 := Rect.unit (s := S128x128) ![0, 0] S128x128.size inb_S128x128_S128x128_0_0
abbrev rBias : Rect S1x128 := Rect.unit (s := S1x128) ![0, 0] S1x128.size inb_S1x128_S1x128_0_0
/-- The point's own feature rows: rows 400·i … 400·i + 199 for the even half, -/
abbrev rOwnLo (i : grid0.Coords) : Rect S10000x128 := Rect.unit (s := S10000x128) (k0_off1 i 0#32) S200x128.size (k0_off1_inb i 0)
/-- and rows 400·i + 200 … 400·i + 399 for the odd half. -/
abbrev rOwnHi (i : grid0.Coords) : Rect S10000x128 := Rect.unit (s := S10000x128) (k0_off1 i 200#32) S200x128.size (k0_off1_inb i 1)
abbrev rOutLo : Rect S400x128 := Rect.unit (s := S400x128) ![0, 0] S200x128.size inb_S400x128_S200x128_0_0
abbrev rOutHi : Rect S400x128 := Rect.unit (s := S400x128) ![200, 0] S200x128.size inb_S400x128_S200x128_200_0

/-! ## What the body leaves in the output block -/

/-- The output block after the body, from the input blocks: its two stores as pieces, the last first. -/
def outBlk (i : grid0.Coords) (a0 a1 : Vec F S200x10000 .f32) (x : Vec F S10000x128 .f32) (wl wr : Vec F S128x128 .f32) (b : Vec F S1x128 .f32) :
    Vec F S400x128 .f32 :=
  View.canon [⟨rOutHi, k0_pay1 (k0_pay3 (View.ld a1 rAdj) (View.ld x rFeat) (View.ld wl rWt)) (View.ld x (rOwnHi i)) (View.ld wr rWt) (View.ld b rBias)⟩,
    ⟨rOutLo, k0_pay2 (View.ld a0 rAdj) (View.ld x rFeat) (View.ld wl rWt) (View.ld x (rOwnLo i)) (View.ld wr rWt) (View.ld b rBias)⟩]

/-- The two stores tile the block, so they cover it. -/
theorem cover_out (p1 p0 : Vec F S200x128 .f32) (y : S400x128.Idx) :
    ∃ pc ∈ ([⟨rOutHi, p1⟩, ⟨rOutLo, p0⟩] : List (View.Piece (Elt F) S400x128 .f32)), y ∈ pc.1.set :=
  View.cover_of_tiled [⟨rOutHi, p1⟩, ⟨rOutLo, p0⟩] S200x128.size (by rfl) y

/-! ## The body's triple -/

set_option maxHeartbeats 4000000 in
/-- On whole staging buffers, the inputs' at contents `a0 … b` and the output's at anything, the body runs to the
    continuation holding the inputs' as they were and the output's at `outBlk` of them. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S400x128 .f32) (harg7 : arg7.IsWhole)
    (a0 a1 : Vec F S200x10000 .f32) (x : Vec F S10000x128 .f32) (wl wr : Vec F S128x128 .f32) (b : Vec F S1x128 .f32) (K : PUnit → sProp 𝕄) :
    iprop(owns (c : Thread nD τ) arg1 fullShare a0 ∗ owns (c : Thread nD τ) arg2 fullShare a1 ∗ owns (c : Thread nD τ) arg3 fullShare x
        ∗ owns (c : Thread nD τ) arg4 fullShare wl ∗ owns (c : Thread nD τ) arg5 fullShare wr ∗ owns (c : Thread nD τ) arg6 fullShare b
        ∗ (∃ d, owns (c : Thread nD τ) arg7 fullShare d)
        ∗ (iprop(owns (c : Thread nD τ) arg1 fullShare a0 ∗ owns (c : Thread nD τ) arg2 fullShare a1 ∗ owns (c : Thread nD τ) arg3 fullShare x
            ∗ owns (c : Thread nD τ) arg4 fullShare wl ∗ owns (c : Thread nD τ) arg5 fullShare wr ∗ owns (c : Thread nD τ) arg6 fullShare b
            ∗ owns (c : Thread nD τ) arg7 fullShare (outBlk i a0 a1 x wl wr b)) -∗ K ⟨⟩))
      ⊢ wp frame (wpE (defs₀ (F := F)) Variants.none c none) E (cc0__sage_block_kernel i arg1 harg1 arg2 harg2 arg3 harg3 arg4 harg4 arg5 harg5 arg6 harg6 arg7 harg7) K := by
  simp only [cc0__sage_block_kernel_eq_skeleton]; unfold cc0__sage_block_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _ _)

end Cert.KernelIdeal.Hand

end
-- ==== Proof.IdealRun.lean ====
/-
  The run of the whole program. The proof data says, window by window and point by point, what the staging
  buffers hold after the body: each input window its block of the array, the output window the block the body
  computes from them (`outBlk`). The adjacency matrix is handed to the kernel through TWO input windows, so the
  pipeline holds it twice, each time at half of the full share; the two halves together are the whole matrix as the
  region finds it (`arrays_split`). With the body's triple at every point this gives the run: every weakly fair
  execution terminates, the output array ends as the blocks written back, and nothing else changes — in
  particular the five argument arrays.
-/
import proofs.«146117_g21028159881243_cont_8to1_1723_11_alg».proof.Proof.IdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline.SharedFrame

/-! ## The proof data -/

/-- Core `c`'s proof data: the arrays as the region finds them; after the body at point `t` each input's buffer
    at its block and the output's at `outBlk` of the input blocks; between points only the scoped buffers the pipeline
    does not stage; nothing owed; the adjacency matrix at a half share for each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (grid0.coords t) (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outBlk (grid0.coords t) (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and
    the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays' shares dealt among the windows -/

/-- The six distinct buffers behind the seven windows' arrays, each whole at the full share as the region finds them,
    make the pipeline's arrays at entry: the adjacency matrix is split into its two half shares, one per window on it;
    every other buffer goes whole to its one window. -/
theorem arrays_split (c : Dev nD) :
    (Pipeline.arrBufs spec0 c (V m c) : sProp 𝕄) ⊢ (dats m 0 c).arrays ((dats m 0 c).arrAt · 0) := by
  have himg : (Finset.univ.image (Pipeline.arrRef spec0) : Finset (Ref sig .tc))
      = [main_arg1, main_arg0, main_call0_v0, main_call0_v1, main_call0_v2, main_v0].toFinset := by decide
  have hbufs : (Pipeline.arrBufs spec0 c (V m c) : sProp 𝕄)
      = iprop((((c : Thread nD τ).loc main_arg1) ↦{fullShare} V m c main_arg1) ∗ (((c : Thread nD τ).loc main_arg0) ↦{fullShare} V m c main_arg0)
          ∗ (((c : Thread nD τ).loc main_call0_v0) ↦{fullShare} V m c main_call0_v0) ∗ (((c : Thread nD τ).loc main_call0_v1) ↦{fullShare} V m c main_call0_v1)
          ∗ (((c : Thread nD τ).loc main_call0_v2) ↦{fullShare} V m c main_call0_v2) ∗ (((c : Thread nD τ).loc main_v0) ↦{fullShare} V m c main_v0)) := by
    unfold Pipeline.arrBufs
    exact bigSep_eq_bigSepL_of_eq _ himg (by decide) _
  rw [arrays_eq_shares (dats m 0 c) arr_whole0, bigSep_W0, hbufs]
  iintro ⟨Hadj, Hx, Hwl, Hwr, Hb, Hout⟩
  ihave Hs := (pointsTo_share (PosShare.mem_left_op_right fullShare)).1 $$ Hadj
  icases Hs with ⟨HadjL, HadjR⟩
  isplitl [HadjL]; · iexact HadjL
  isplitl [HadjR]; · iexact HadjR
  isplitl [Hx]; · iexact Hx
  isplitl [Hwl]; · iexact Hwl
  isplitl [Hwr]; · iexact Hwr
  isplitl [Hb]; · iexact Hb
  iexact Hout

/-! ## The run and the frame -/

set_option backward.isDefEq.respectTransparency.types false in
/-- Every weakly fair execution of @main terminates, and every final state has each window's array at what the
    proof data computes and every other unscoped buffer as the region found it. -/
theorem run_main : θ_run defs (onTc (τ := τ) (main (F := F))) (s₀ m ρ) (Pipeline.FramePost cfgs (dats m) 0 (V m)) :=
  θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := arrays_split m) (hΦ := fun _ _ => rfl)

/-- The frame: the program runs to the end, and its five argument arrays end as they were launched. The feature
    matrix and the adjacency matrix are input windows' arrays, never written back; the two weight matrices and the
    bias vector are no window's array, and no host operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 2).trans (((dats m 0 c).arrAt_in 2 rfl _).trans ((A_eq m c 2).trans (V_main_arg0 m c))),
     ((h c).1 0).trans (((dats m 0 c).arrAt_in 0 rfl _).trans ((A_eq m c 0).trans (V_main_arg1 m c))),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c)⟩) (run_main m ρ)

end Cert.KernelIdeal.Hand

end
-- ==== Proof.IdealPayload.lean ====
/-
  The body's arithmetic at an index, over the extended reals. One half of the output block, at row `p` and
  column `o`, is

      ( Σ_d ( Σ_s a[p,s] · x[s,d] ) · wl[d,o]  +  Σ_d xo[p,d] · wr[d,o] )  +  b[0,o]

  where `a` is the half's 200 × 10000 adjacency block, `x` the feature matrix, `xo` the half's own 200 feature
  rows, `wl` and `wr` the transposed weight matrices and `b` the bias row: each matrix product into a zero
  accumulator is the plain sum of products, the casts to the same shape change nothing, and the bias row is repeated
  down the rows. Both stores of the body carry this one function of their loaded blocks.
-/
import proofs.«146117_g21028159881243_cont_8to1_1723_11_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Idealize.SL.Sem
open Cert.KernelIdeal Cert.KernelIdeal.Gen
open scoped BigOperators

/-! The operand coordinates of `dot_S200x10000_S10000x128_S200x128_1_0_0_1_n_n` at an output index `j` and a contraction index `q`. -/
theorem mmAgg_l0 (j : S200x128.Idx) (q : dot_S200x10000_S10000x128_S200x128_1_0_0_1_n_n.contr.Idx) : (dot_S200x10000_S10000x128_S200x128_1_0_0_1_n_n.lhsIdx j q 0).val = (j 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem mmAgg_l1 (j : S200x128.Idx) (q : dot_S200x10000_S10000x128_S200x128_1_0_0_1_n_n.contr.Idx) : (dot_S200x10000_S10000x128_S200x128_1_0_0_1_n_n.lhsIdx j q 1).val = (q ⟨0, by decide⟩).val :=
  dot_S200x10000_S10000x128_S200x128_1_0_0_1_n_n.lhsIdx_val_of_single rfl j q
theorem mmAgg_r0 (j : S200x128.Idx) (q : dot_S200x10000_S10000x128_S200x128_1_0_0_1_n_n.contr.Idx) : (dot_S200x10000_S10000x128_S200x128_1_0_0_1_n_n.rhsIdx j q 0).val = (q ⟨0, by decide⟩).val :=
  dot_S200x10000_S10000x128_S200x128_1_0_0_1_n_n.rhsIdx_val_of_single rfl j q
theorem mmAgg_r1 (j : S200x128.Idx) (q : dot_S200x10000_S10000x128_S200x128_1_0_0_1_n_n.contr.Idx) : (dot_S200x10000_S10000x128_S200x128_1_0_0_1_n_n.rhsIdx j q 1).val = (j 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The matrix product into a zero accumulator, at an output index: the sum over the contracted axis of row times column. -/
theorem mmAgg_apply (l : FVec Ideal S200x10000 .f32) (r : FVec Ideal S10000x128 .f32) (j : S200x128.Idx) :
    matmul dot_S200x10000_S10000x128_S200x128_1_0_0_1_n_n none l r (constant (F := Ideal) S200x128 .f32 0x00000000#32) j
      = ∑ k : Fin 10000, l (ix2 (j 0) k) * r (ix2 k (j 1)) := by
  simp only [matmul]
  rw [Ideal.matmul_constant_zero_apply, ← Equiv.sum_comp (ValueIdx.contrEquiv1 dot_S200x10000_S10000x128_S200x128_1_0_0_1_n_n 10000 rfl rfl).symm]
  refine Finset.sum_congr rfl fun k _ => ?_
  have hk := ValueIdx.contrEquiv1_symm_val dot_S200x10000_S10000x128_S200x128_1_0_0_1_n_n 10000 rfl rfl k
  have el : dot_S200x10000_S10000x128_S200x128_1_0_0_1_n_n.lhsIdx j ((ValueIdx.contrEquiv1 dot_S200x10000_S10000x128_S200x128_1_0_0_1_n_n 10000 rfl rfl).symm k) = ix2 (j 0) k := funext fun a => Fin.ext (by
    match a with
    | ⟨0, _⟩ => exact mmAgg_l0 _ _
    | ⟨1, _⟩ => exact (mmAgg_l1 _ _).trans hk)
  have er : dot_S200x10000_S10000x128_S200x128_1_0_0_1_n_n.rhsIdx j ((ValueIdx.contrEquiv1 dot_S200x10000_S10000x128_S200x128_1_0_0_1_n_n 10000 rfl rfl).symm k) = ix2 k (j 1) := funext fun a => Fin.ext (by
    match a with
    | ⟨0, _⟩ => exact (mmAgg_r0 _ _).trans hk
    | ⟨1, _⟩ => exact mmAgg_r1 _ _)
  rw [el, er]
  rfl

/-! The operand coordinates of `dot_S200x128_S128x128_S200x128_1_0_0_1_n_n` at an output index `j` and a contraction index `q`. -/
theorem mmWt_l0 (j : S200x128.Idx) (q : dot_S200x128_S128x128_S200x128_1_0_0_1_n_n.contr.Idx) : (dot_S200x128_S128x128_S200x128_1_0_0_1_n_n.lhsIdx j q 0).val = (j 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem mmWt_l1 (j : S200x128.Idx) (q : dot_S200x128_S128x128_S200x128_1_0_0_1_n_n.contr.Idx) : (dot_S200x128_S128x128_S200x128_1_0_0_1_n_n.lhsIdx j q 1).val = (q ⟨0, by decide⟩).val :=
  dot_S200x128_S128x128_S200x128_1_0_0_1_n_n.lhsIdx_val_of_single rfl j q
theorem mmWt_r0 (j : S200x128.Idx) (q : dot_S200x128_S128x128_S200x128_1_0_0_1_n_n.contr.Idx) : (dot_S200x128_S128x128_S200x128_1_0_0_1_n_n.rhsIdx j q 0).val = (q ⟨0, by decide⟩).val :=
  dot_S200x128_S128x128_S200x128_1_0_0_1_n_n.rhsIdx_val_of_single rfl j q
theorem mmWt_r1 (j : S200x128.Idx) (q : dot_S200x128_S128x128_S200x128_1_0_0_1_n_n.contr.Idx) : (dot_S200x128_S128x128_S200x128_1_0_0_1_n_n.rhsIdx j q 1).val = (j 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- The matrix product into a zero accumulator, at an output index: the sum over the contracted axis of row times column. -/
theorem mmWt_apply (l : FVec Ideal S200x128 .f32) (r : FVec Ideal S128x128 .f32) (j : S200x128.Idx) :
    matmul dot_S200x128_S128x128_S200x128_1_0_0_1_n_n none l r (constant (F := Ideal) S200x128 .f32 0x00000000#32) j
      = ∑ k : Fin 128, l (ix2 (j 0) k) * r (ix2 k (j 1)) := by
  simp only [matmul]
  rw [Ideal.matmul_constant_zero_apply, ← Equiv.sum_comp (ValueIdx.contrEquiv1 dot_S200x128_S128x128_S200x128_1_0_0_1_n_n 128 rfl rfl).symm]
  refine Finset.sum_congr rfl fun k _ => ?_
  have hk := ValueIdx.contrEquiv1_symm_val dot_S200x128_S128x128_S200x128_1_0_0_1_n_n 128 rfl rfl k
  have el : dot_S200x128_S128x128_S200x128_1_0_0_1_n_n.lhsIdx j ((ValueIdx.contrEquiv1 dot_S200x128_S128x128_S200x128_1_0_0_1_n_n 128 rfl rfl).symm k) = ix2 (j 0) k := funext fun a => Fin.ext (by
    match a with
    | ⟨0, _⟩ => exact mmWt_l0 _ _
    | ⟨1, _⟩ => exact (mmWt_l1 _ _).trans hk)
  have er : dot_S200x128_S128x128_S200x128_1_0_0_1_n_n.rhsIdx j ((ValueIdx.contrEquiv1 dot_S200x128_S128x128_S200x128_1_0_0_1_n_n 128 rfl rfl).symm k) = ix2 k (j 1) := funext fun a => Fin.ext (by
    match a with
    | ⟨0, _⟩ => exact (mmWt_r0 _ _).trans hk
    | ⟨1, _⟩ => exact mmWt_r1 _ _)
  rw [el, er]
  rfl

/-- One entry of a half of the output block, at row `p` and column `q`, from the blocks the body loads. -/
def halfAt (a : S200x10000.Idx → EReal) (x : S10000x128.Idx → EReal) (wl : S128x128.Idx → EReal) (xo : S200x128.Idx → EReal)
    (wr : S128x128.Idx → EReal) (b : S1x128.Idx → EReal) (p : Fin 200) (q : Fin 128) : EReal :=
  ((∑ d : Fin 128, (∑ s : Fin 10000, a (ix2 p s) * x (ix2 s d)) * wl (ix2 d q))
    + ∑ d : Fin 128, xo (ix2 p d) * wr (ix2 d q)) + b (ix2 (0 : Fin 1) q)

/-- One half of the output block as a function of the blocks the body loads. -/
def halfOut (a : S200x10000.Idx → EReal) (x : S10000x128.Idx → EReal) (wl : S128x128.Idx → EReal) (xo : S200x128.Idx → EReal)
    (wr : S128x128.Idx → EReal) (b : S1x128.Idx → EReal) : S200x128.Idx → EReal := fun j => halfAt a x wl xo wr b (j 0) (j 1)

/-- The bias row repeated down the 200 rows, at an index. -/
theorem bias_apply (b : S1x128.Idx → EReal) (j : S200x128.Idx) :
    broadcastTo S200x128 b broadcasts_S1x128_S200x128 j = b (ix2 (0 : Fin 1) (j 1)) := by
  exact broadcastTo_apply b broadcasts_S1x128_S200x128 j (ix2 (0 : Fin 1) (j 1)) (fun a => by
    match a with
    | ⟨0, _⟩ => show (0 : Nat) = if (1 : Nat) = 1 then 0 else (j 0).val; rw [if_pos rfl]
    | ⟨1, _⟩ => show (j 1).val = if (128 : Nat) = 1 then 0 else (j 1).val; rw [if_neg (by decide)])

/-- The first store's payload is `halfOut` of its loaded blocks. -/
theorem pay2_eq (a : Vec Ideal S200x10000 .f32) (x : Vec Ideal S10000x128 .f32) (wl : Vec Ideal S128x128 .f32) (xo : Vec Ideal S200x128 .f32)
    (wr : Vec Ideal S128x128 .f32) (b : Vec Ideal S1x128 .f32) : k0_pay2 (F := Ideal) a x wl xo wr b = halfOut a x wl xo wr b := by
  funext j
  unfold k0_pay2 halfOut halfAt
  simp only [addf_apply, shapeCast_self, mmWt_apply, mmAgg_apply, bias_apply]

/-- So is the second store's, whose first product is the part's returned value. -/
theorem pay13_eq (a : Vec Ideal S200x10000 .f32) (x : Vec Ideal S10000x128 .f32) (wl : Vec Ideal S128x128 .f32) (xo : Vec Ideal S200x128 .f32)
    (wr : Vec Ideal S128x128 .f32) (b : Vec Ideal S1x128 .f32) :
    k0_pay1 (F := Ideal) (k0_pay3 (F := Ideal) a x wl) xo wr b = halfOut a x wl xo wr b := by
  funext j
  unfold k0_pay1 k0_pay3 halfOut halfAt
  simp only [addf_apply, shapeCast_self, mmWt_apply, mmAgg_apply, bias_apply]

end Cert.KernelIdeal.Pay

end
-- ==== Proof.Spec.lean ====
/-
  What both programs compute, as one function of the five argument arrays over the extended reals.

  With `x` the 10000 × 128 feature matrix, `adj` the 10000 × 10000 adjacency matrix, `wl` and `wr` the two
  128 × 128 weight matrices and `b` the bias vector, row `r` and column `o` of the result are made of three terms:

      lin  r o = Σ_d ( Σ_s adj[r,s] · x[s,d] ) · wl[o,d]      the aggregated neighbours through the first weights
      root r o = Σ_d x[r,d] · wr[o,d]                           the node's own features through the second weights
      b[o]                                                      the bias

  The reference adds them as (lin + b) + root, the kernel as (lin + root) + b. Addition of extended reals is
  commutative and associative at the infinities too, so the two are the same function, with no finiteness needed.
-/
import Idealize.ShloMosaic.PureOps.Ideal
import Idealize.ShloMosaic.Lib.ValueIdx

noncomputable section

namespace Cert.SageSpec

open Idealize.ShloMosaic Idealize.ShloMosaic.ValueIdx
open scoped BigOperators

abbrev SFeat : Shape := ⟨2, ![10000, 128]⟩
abbrev SAdj : Shape := ⟨2, ![10000, 10000]⟩
abbrev SWt : Shape := ⟨2, ![128, 128]⟩
abbrev SBias : Shape := ⟨1, ![128]⟩
abbrev SBiasRow : Shape := ⟨2, ![1, 128]⟩

/-- The neighbours' features summed with the adjacency weights, through the first weight matrix. -/
def lin (x : SFeat.Idx → EReal) (adj : SAdj.Idx → EReal) (wl : SWt.Idx → EReal) (r : Fin 10000) (o : Fin 128) : EReal :=
  ∑ d : Fin 128, (∑ s : Fin 10000, adj (ix2 r s) * x (ix2 s d)) * wl (ix2 o d)

/-- The node's own features through the second weight matrix. -/
def root (x : SFeat.Idx → EReal) (wr : SWt.Idx → EReal) (r : Fin 10000) (o : Fin 128) : EReal :=
  ∑ d : Fin 128, x (ix2 r d) * wr (ix2 o d)

/-- The result at row `r`, column `o`, in the reference's order of addition, -/
def resultAt (x : SFeat.Idx → EReal) (adj : SAdj.Idx → EReal) (wl : SWt.Idx → EReal) (b : SBias.Idx → EReal) (wr : SWt.Idx → EReal)
    (r : Fin 10000) (o : Fin 128) : EReal := (lin x adj wl r o + b (ix1 o)) + root x wr r o

/-- and in the kernel's. -/
def resultKAt (x : SFeat.Idx → EReal) (adj : SAdj.Idx → EReal) (wl : SWt.Idx → EReal) (b : SBias.Idx → EReal) (wr : SWt.Idx → EReal)
    (r : Fin 10000) (o : Fin 128) : EReal := (lin x adj wl r o + root x wr r o) + b (ix1 o)

/-- The result array in the reference's order of addition. -/
def result (x : SFeat.Idx → EReal) (adj : SAdj.Idx → EReal) (wl : SWt.Idx → EReal) (b : SBias.Idx → EReal) (wr : SWt.Idx → EReal) :
    SFeat.Idx → EReal := fun i => resultAt x adj wl b wr (i 0) (i 1)

/-- The result array in the kernel's order of addition. -/
def resultK (x : SFeat.Idx → EReal) (adj : SAdj.Idx → EReal) (wl : SWt.Idx → EReal) (b : SBias.Idx → EReal) (wr : SWt.Idx → EReal) :
    SFeat.Idx → EReal := fun i => resultKAt x adj wl b wr (i 0) (i 1)

/-- The two orders give one function: (l + r) + b = (l + b) + r in any commutative additive semigroup. -/
theorem resultK_eq_result (x : SFeat.Idx → EReal) (adj : SAdj.Idx → EReal) (wl : SWt.Idx → EReal) (b : SBias.Idx → EReal) (wr : SWt.Idx → EReal) :
    resultK x adj wl b wr = result x adj wl b wr :=
  funext fun _ => add_right_comm _ _ _

/-- The kernel's own view of the same entry: over the weight matrices already transposed (`wlT[d,o] = wl[o,d]`)
    and the bias as a one-row matrix, which is how the kernel's windows hold them. -/
def resultTAt (x : SFeat.Idx → EReal) (adj : SAdj.Idx → EReal) (wlT wrT : SWt.Idx → EReal) (brow : SBiasRow.Idx → EReal)
    (r : Fin 10000) (o : Fin 128) : EReal :=
  ((∑ d : Fin 128, (∑ s : Fin 10000, adj (ix2 r s) * x (ix2 s d)) * wlT (ix2 d o))
    + ∑ d : Fin 128, x (ix2 r d) * wrT (ix2 d o)) + brow (ix2 (0 : Fin 1) o)

def resultT (x : SFeat.Idx → EReal) (adj : SAdj.Idx → EReal) (wlT wrT : SWt.Idx → EReal) (brow : SBiasRow.Idx → EReal) :
    SFeat.Idx → EReal := fun i => resultTAt x adj wlT wrT brow (i 0) (i 1)

/-- Transposing the weights and laying the bias out as a row changes nothing. -/
theorem resultTAt_eq (x : SFeat.Idx → EReal) (adj : SAdj.Idx → EReal) (wl wr : SWt.Idx → EReal) (b : SBias.Idx → EReal)
    (wlT wrT : SWt.Idx → EReal) (brow : SBiasRow.Idx → EReal)
    (hl : ∀ (d o : Fin 128), wlT (ix2 d o) = wl (ix2 o d)) (hr : ∀ (d o : Fin 128), wrT (ix2 d o) = wr (ix2 o d))
    (hb : ∀ o : Fin 128, brow (ix2 (0 : Fin 1) o) = b (ix1 o)) (r : Fin 10000) (o : Fin 128) :
    resultTAt x adj wlT wrT brow r o = resultKAt x adj wl b wr r o := by
  unfold resultTAt resultKAt lin root
  simp only [hl, hr, hb]

theorem resultT_eq_resultK (x : SFeat.Idx → EReal) (adj : SAdj.Idx → EReal) (wl wr : SWt.Idx → EReal) (b : SBias.Idx → EReal)
    (wlT wrT : SWt.Idx → EReal) (brow : SBiasRow.Idx → EReal)
    (hl : ∀ (d o : Fin 128), wlT (ix2 d o) = wl (ix2 o d)) (hr : ∀ (d o : Fin 128), wrT (ix2 d o) = wr (ix2 o d))
    (hb : ∀ o : Fin 128, brow (ix2 (0 : Fin 1) o) = b (ix1 o)) :
    resultT x adj wlT wrT brow = resultK x adj wl b wr :=
  funext fun i => resultTAt_eq x adj wl wr b wlT wrT brow hl hr hb (i 0) (i 1)

end Cert.SageSpec

end
-- ==== Proof.IdealValue.lean ====
/-
  What the idealized kernel leaves in the result array, index by index.

  At grid point `t` the kernel's output window shows rows 400·t … 400·t + 399 of the result. The body fills the
  first 200 of them from the EVEN adjacency block (rows 2t·200 …) and the point's own feature rows 400·t …, and
  the last 200 from the ODD adjacency block (rows (2t+1)·200 …) and the feature rows 400·t + 200 …; in both halves
  the adjacency rows and the feature rows are those of the very result row being written. So what point `t` writes
  back is block `t` of ONE whole-array function, the specification's `resultT` of the arrays as the region finds
  them; the 25 blocks tile the 10000 rows, so the array ends holding that function. The three buffers the host
  operations fill before the region are the two weight matrices transposed and the bias vector as one row, which
  turns `resultT` of them into the specification's `resultK` of the five arguments.
-/
import proofs.«146117_g21028159881243_cont_8to1_1723_11_alg».proof.Proof.IdealRun
import proofs.«146117_g21028159881243_cont_8to1_1723_11_alg».proof.Proof.IdealPayload
import proofs.«146117_g21028159881243_cont_8to1_1723_11_alg».proof.Proof.Spec
import Idealize.ShloMosaic.Lib.StableHlo.Run

set_option maxRecDepth 16384

noncomputable section

namespace Cert.KernelIdeal.Val

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.KernelIdeal.Hand Cert.KernelIdeal.Pay Cert.SageSpec
open scoped BigOperators

variable (m : (ℓ : Loc nD τ sig) → Buf (Elt Ideal) ℓ) (ρ : Dev nD → PrngReg)

/-! ## What the host operations before the region leave -/

theorem V_wlT (c : Dev nD) : (V m c main_call0_v0 : S128x128.Idx → EReal)
    = transpose S128x128 [1, 0] (m ((c : Thread nD τ).loc main_arg2)) transposes_S128x128_S128x128_1_0 := by
  dsimp only [V, hostOps0]; after_results; rfl
theorem V_wrT (c : Dev nD) : (V m c main_call0_v1 : S128x128.Idx → EReal)
    = transpose S128x128 [1, 0] (m ((c : Thread nD τ).loc main_arg4)) transposes_S128x128_S128x128_1_0 := by
  dsimp only [V, hostOps0]; after_results; rfl
theorem V_brow (c : Dev nD) : (V m c main_call0_v2 : S1x128.Idx → EReal)
    = shapeCast S1x128 (m ((c : Thread nD τ).loc main_arg3)) shapeCasts_S128_S1x128 := by
  dsimp only [V, hostOps0]; after_results; rfl

/-! ## The grid, decided once -/

/-- At each of the 25 points: the block indices of the seven windows (the adjacency halves at 2t and 2t + 1, the output
    at t, the others constant), and the two row offsets the body computes for the point's own feature rows. -/
theorem grid_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ k0_off1 (grid0.coords t) 0#32 (0 : Fin 2) = 400 * t.val ∧ k0_off1 (grid0.coords t) 0#32 (1 : Fin 2) = 0
    ∧ k0_off1 (grid0.coords t) 200#32 (0 : Fin 2) = 400 * t.val + 200 ∧ k0_off1 (grid0.coords t) 200#32 (1 : Fin 2) = 0 :=
  (by decide +kernel : ∀ t : Fin grid0.N, _)

theorem hz2 : (![0, 0] : Fin 2 → Nat) = fun _ => 0 := funext fun a => by fin_cases a <;> rfl

/-! ## The input blocks read at an index -/

/-! The four windows whose block is their whole array show the array itself. -/
theorem feat_blk (c : Dev nD) (t : Fin cfg0.N) : (iblk m c 2 t : S10000x128.Idx → EReal) = V m c main_arg0 := by
  obtain ⟨e00, e01, e10, e11, e20, e21, e30, e31, e40, e41, e50, e51, e60, e61, oL0, oL1, oH0, oH1⟩ := grid_facts t
  funext y
  show V m c main_arg0 (((cfg0.win 2).blk t).view.emb y) = V m c main_arg0 y
  refine congrArg _ (funext fun a => Fin.ext ?_)
  match a with
  | ⟨0, _⟩ => show win0_2.index t (0 : Fin 2) * 10000 + 1 * (y 0).val = (y 0).val; omega
  | ⟨1, _⟩ => show win0_2.index t (1 : Fin 2) * 128 + 1 * (y 1).val = (y 1).val; omega
theorem wl_blk (c : Dev nD) (t : Fin cfg0.N) : (iblk m c 3 t : S128x128.Idx → EReal) = V m c main_call0_v0 := by
  obtain ⟨e00, e01, e10, e11, e20, e21, e30, e31, e40, e41, e50, e51, e60, e61, oL0, oL1, oH0, oH1⟩ := grid_facts t
  funext y
  show V m c main_call0_v0 (((cfg0.win 3).blk t).view.emb y) = V m c main_call0_v0 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem wr_blk (c : Dev nD) (t : Fin cfg0.N) : (iblk m c 4 t : S128x128.Idx → EReal) = V m c main_call0_v1 := by
  obtain ⟨e00, e01, e10, e11, e20, e21, e30, e31, e40, e41, e50, e51, e60, e61, oL0, oL1, oH0, oH1⟩ := grid_facts t
  funext y
  show V m c main_call0_v1 (((cfg0.win 4).blk t).view.emb y) = V m c main_call0_v1 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega
theorem bias_blk (c : Dev nD) (t : Fin cfg0.N) : (iblk m c 5 t : S1x128.Idx → EReal) = V m c main_call0_v2 := by
  obtain ⟨e00, e01, e10, e11, e20, e21, e30, e31, e40, e41, e50, e51, e60, e61, oL0, oL1, oH0, oH1⟩ := grid_facts t
  funext y
  show V m c main_call0_v2 (((cfg0.win 5).blk t).view.emb y) = V m c main_call0_v2 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-! Row `p` of the even adjacency block is row 400·t + p of the matrix, of the odd block row 400·t + 200 + p. -/
theorem adj_even (c : Dev nD) (t : Fin cfg0.N) (p : Fin 200) (s : Fin 10000) (R : Fin 10000) (hR : R.val = 400 * t.val + p.val) :
    iblk m c 0 t (ix2 p s) = V m c main_arg1 (ix2 R s) := by
  obtain ⟨e00, e01, e10, e11, e20, e21, e30, e31, e40, e41, e50, e51, e60, e61, oL0, oL1, oH0, oH1⟩ := grid_facts t
  show V m c main_arg1 (((cfg0.win 0).blk t).view.emb (ix2 p s)) = _
  refine congrArg _ (funext fun a => Fin.ext ?_)
  match a with
  | ⟨0, _⟩ => show win0_0.index t (0 : Fin 2) * 200 + 1 * p.val = R.val; omega
  | ⟨1, _⟩ => show win0_0.index t (1 : Fin 2) * 10000 + 1 * s.val = s.val; omega
theorem adj_odd (c : Dev nD) (t : Fin cfg0.N) (p : Fin 200) (s : Fin 10000) (R : Fin 10000) (hR : R.val = 400 * t.val + 200 + p.val) :
    iblk m c 1 t (ix2 p s) = V m c main_arg1 (ix2 R s) := by
  obtain ⟨e00, e01, e10, e11, e20, e21, e30, e31, e40, e41, e50, e51, e60, e61, oL0, oL1, oH0, oH1⟩ := grid_facts t
  show V m c main_arg1 (((cfg0.win 1).blk t).view.emb (ix2 p s)) = _
  refine congrArg _ (funext fun a => Fin.ext ?_)
  match a with
  | ⟨0, _⟩ => show win0_1.index t (0 : Fin 2) * 200 + 1 * p.val = R.val; omega
  | ⟨1, _⟩ => show win0_1.index t (1 : Fin 2) * 10000 + 1 * s.val = s.val; omega

/-! The point's own feature rows, loaded at the offsets the body computes, are the same rows of the feature matrix. -/
theorem own_lo (c : Dev nD) (t : Fin cfg0.N) (p : Fin 200) (d : Fin 128) (R : Fin 10000) (hR : R.val = 400 * t.val + p.val) :
    View.ld (iblk m c 2 t) (rOwnLo (grid0.coords t)) (ix2 p d) = V m c main_arg0 (ix2 R d) := by
  obtain ⟨e00, e01, e10, e11, e20, e21, e30, e31, e40, e41, e50, e51, e60, e61, oL0, oL1, oH0, oH1⟩ := grid_facts t
  rw [feat_blk]
  show V m c main_arg0 ((rOwnLo (grid0.coords t)).emb (ix2 p d)) = _
  refine congrArg _ (funext fun a => Fin.ext ?_)
  match a with
  | ⟨0, _⟩ => show k0_off1 (grid0.coords t) 0#32 (0 : Fin 2) + 1 * p.val = R.val; omega
  | ⟨1, _⟩ => show k0_off1 (grid0.coords t) 0#32 (1 : Fin 2) + 1 * d.val = d.val; omega
theorem own_hi (c : Dev nD) (t : Fin cfg0.N) (p : Fin 200) (d : Fin 128) (R : Fin 10000) (hR : R.val = 400 * t.val + 200 + p.val) :
    View.ld (iblk m c 2 t) (rOwnHi (grid0.coords t)) (ix2 p d) = V m c main_arg0 (ix2 R d) := by
  obtain ⟨e00, e01, e10, e11, e20, e21, e30, e31, e40, e41, e50, e51, e60, e61, oL0, oL1, oH0, oH1⟩ := grid_facts t
  rw [feat_blk]
  show V m c main_arg0 ((rOwnHi (grid0.coords t)).emb (ix2 p d)) = _
  refine congrArg _ (funext fun a => Fin.ext ?_)
  match a with
  | ⟨0, _⟩ => show k0_off1 (grid0.coords t) 200#32 (0 : Fin 2) + 1 * p.val = R.val; omega
  | ⟨1, _⟩ => show k0_off1 (grid0.coords t) 200#32 (1 : Fin 2) + 1 * d.val = d.val; omega

/-! ## One half of the block is the specification at the half's rows -/

/-- If the half's adjacency rows and own feature rows are those of result row `R`, and the other blocks are the whole
    arrays, entry (p, q) of the half is the specification's entry (R, q). -/
theorem halfAt_eq (X : S10000x128.Idx → EReal) (A : S10000x10000.Idx → EReal) (WL WR : S128x128.Idx → EReal) (B : S1x128.Idx → EReal)
    (a : S200x10000.Idx → EReal) (x : S10000x128.Idx → EReal) (wl : S128x128.Idx → EReal) (xo : S200x128.Idx → EReal)
    (wr : S128x128.Idx → EReal) (b : S1x128.Idx → EReal) (p : Fin 200) (q : Fin 128) (R : Fin 10000) (O : Fin 128)
    (ha : ∀ s : Fin 10000, a (ix2 p s) = A (ix2 R s)) (hx : x = X) (hwl : wl = WL) (hwr : wr = WR) (hb : b = B)
    (hxo : ∀ d : Fin 128, xo (ix2 p d) = X (ix2 R d)) (hq : q = O) :
    halfAt a x wl xo wr b p q = resultTAt X A WL WR B R O := by
  subst hx hwl hwr hb hq
  unfold halfAt resultTAt
  simp only [ha, hxo]

/-! The rows and columns of the array that the two halves of point `t`'s block are. -/
theorem row_lo (t : Fin cfg0.N) (xx : S200x128.Idx) :
    ((((cfg0.win 6).blk t).view.emb (rOutLo.emb xx)) 0).val = 400 * t.val + (xx 0).val := by
  obtain ⟨e00, e01, e10, e11, e20, e21, e30, e31, e40, e41, e50, e51, e60, e61, oL0, oL1, oH0, oH1⟩ := grid_facts t
  show win0_6.index t (0 : Fin 2) * 400 + 1 * (0 + 1 * (xx 0).val) = _; omega
theorem row_hi (t : Fin cfg0.N) (xx : S200x128.Idx) :
    ((((cfg0.win 6).blk t).view.emb (rOutHi.emb xx)) 0).val = 400 * t.val + 200 + (xx 0).val := by
  obtain ⟨e00, e01, e10, e11, e20, e21, e30, e31, e40, e41, e50, e51, e60, e61, oL0, oL1, oH0, oH1⟩ := grid_facts t
  show win0_6.index t (0 : Fin 2) * 400 + 1 * (200 + 1 * (xx 0).val) = _; omega
theorem col_lo (t : Fin cfg0.N) (xx : S200x128.Idx) : (((cfg0.win 6).blk t).view.emb (rOutLo.emb xx)) 1 = xx 1 := by
  obtain ⟨e00, e01, e10, e11, e20, e21, e30, e31, e40, e41, e50, e51, e60, e61, oL0, oL1, oH0, oH1⟩ := grid_facts t
  refine Fin.ext ?_
  show win0_6.index t (1 : Fin 2) * 128 + 1 * (0 + 1 * (xx 1).val) = (xx 1).val; omega
theorem col_hi (t : Fin cfg0.N) (xx : S200x128.Idx) : (((cfg0.win 6).blk t).view.emb (rOutHi.emb xx)) 1 = xx 1 := by
  obtain ⟨e00, e01, e10, e11, e20, e21, e30, e31, e40, e41, e50, e51, e60, e61, oL0, oL1, oH0, oH1⟩ := grid_facts t
  refine Fin.ext ?_
  show win0_6.index t (1 : Fin 2) * 128 + 1 * (0 + 1 * (xx 1).val) = (xx 1).val; omega

/-! ## The output block -/

/-- The output block at an index, when each half is a given function of the block's index at the half's rows: the two
    stores carry one function each of their loaded blocks, their whole-buffer loads read the buffers, and the two
    pieces tile the block. -/
theorem outBlk_apply (i : grid0.Coords) (a0 a1 : Vec Ideal S200x10000 .f32) (x : Vec Ideal S10000x128 .f32) (wl wr : Vec Ideal S128x128 .f32)
    (b : Vec Ideal S1x128 .f32) (Gb : S400x128.Idx → EReal)
    (hHi : ∀ xx : S200x128.Idx, halfOut a1 x wl (View.ld x (rOwnHi i)) wr b xx = Gb (rOutHi.emb xx))
    (hLo : ∀ xx : S200x128.Idx, halfOut a0 x wl (View.ld x (rOwnLo i)) wr b xx = Gb (rOutLo.emb xx)) (y : S400x128.Idx) :
    outBlk (F := Ideal) i a0 a1 x wl wr b y = Gb y := by
  unfold outBlk
  rw [pay2_eq, pay13_eq]
  simp only [View.ld_unit_zero (S := S200x10000) hz2, View.ld_unit_zero (S := S10000x128) hz2, View.ld_unit_zero (S := S128x128) hz2,
    View.ld_unit_zero (S := S1x128) hz2]
  refine View.canon_apply_of_pieces (Val := Elt Ideal) (e := .f32) Gb _ ?_ y (cover_out _ _ y)
  intro pc hpc xx
  rcases List.mem_cons.mp hpc with rfl | hpc
  · exact hHi xx
  · rcases List.mem_singleton.mp hpc with rfl
    exact hLo xx

/-- What point `t` writes back is block `t` of `resultT` of the arrays as the region finds them. -/
theorem flushed_eq (c : Dev nD) (t : Fin cfg0.N) :
    (dats m 0 c).flushed 6 t = ((cfg0.win 6).blk t).view.read (Elt Ideal) (resultT (V m c main_arg0) (V m c main_arg1) (V m c main_call0_v0) (V m c main_call0_v1) (V m c main_call0_v2)) := by
  show (cfg0.win 6).cut (grid0.coords t) ((dats m 0 c).after 6 t) = _
  rw [after_6]
  funext y
  show outBlk (F := Ideal) (grid0.coords t) (iblk m c 0 t) (iblk m c 1 t) (iblk m c 2 t) (iblk m c 3 t) (iblk m c 4 t) (iblk m c 5 t) y
    = resultT (V m c main_arg0) (V m c main_arg1) (V m c main_call0_v0) (V m c main_call0_v1) (V m c main_call0_v2) (((cfg0.win 6).blk t).view.emb y)
  refine outBlk_apply (grid0.coords t) _ _ _ _ _ _ (fun y => resultT (V m c main_arg0) (V m c main_arg1) (V m c main_call0_v0) (V m c main_call0_v1) (V m c main_call0_v2) (((cfg0.win 6).blk t).view.emb y)) ?_ ?_ y
  · -- the odd half: rows 400·t + 200 …
    intro xx
    show halfAt _ _ _ _ _ _ (xx 0) (xx 1) = resultTAt _ _ _ _ _ _ _
    refine halfAt_eq _ _ _ _ _ _ _ _ _ _ _ (xx 0) (xx 1) _ _
      (fun s => adj_odd m c t (xx 0) s _ (row_hi t xx)) (feat_blk m c t) (wl_blk m c t) (wr_blk m c t) (bias_blk m c t)
      (fun d => own_hi m c t (xx 0) d _ (row_hi t xx)) (col_hi t xx).symm
  · -- the even half: rows 400·t …
    intro xx
    show halfAt _ _ _ _ _ _ (xx 0) (xx 1) = resultTAt _ _ _ _ _ _ _
    refine halfAt_eq _ _ _ _ _ _ _ _ _ _ _ (xx 0) (xx 1) _ _
      (fun s => adj_even m c t (xx 0) s _ (row_lo t xx)) (feat_blk m c t) (wl_blk m c t) (wr_blk m c t) (bias_blk m c t)
      (fun d => own_lo m c t (xx 0) d _ (row_lo t xx)) (col_lo t xx).symm

/-! ## The blocks tile the array -/

theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v0).slice (win0_6.rect t)).set ↔ _
  rw [View.set_slice_whole, Rect.mem_set_unit]
  exact Iff.rfl

/-- Row `r` of the array is in the block of point `r / 400`. -/
theorem cover6 (i : S10000x128.Idx) : ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  have htv : t.val = (i 0).val / 400 := rfl
  refine ⟨t, flush0_6 t, ?_⟩
  rw [mem_blk6]
  obtain ⟨e00, e01, e10, e11, e20, e21, e30, e31, e40, e41, e50, e51, e60, e61, oL0, oL1, oH0, oH1⟩ := grid_facts t
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 128 ≤ (i 1).val ∧ (i 1).val < win0_6.index t (1 : Fin 2) * 128 + 128; omega

/-! ## The array after the run -/

/-- The transposed weights and the bias row, read back at the arguments. -/
theorem transpose_at (w : S128x128.Idx → EReal) (d o : Fin 128) :
    transpose S128x128 [1, 0] w transposes_S128x128_S128x128_1_0 (ix2 d o) = w (ix2 o d) :=
  transpose_apply [1, 0] w transposes_S128x128_S128x128_1_0 (ix2 d o) (ix2 o d) (fun b => match b with
    | ⟨0, _⟩ => rfl
    | ⟨1, _⟩ => rfl)
theorem biasrow_at (b : S128.Idx → EReal) (o : Fin 128) :
    shapeCast S1x128 b shapeCasts_S128_S1x128 (ix2 (0 : Fin 1) o) = b (ix1 o) :=
  shapeCast_apply b shapeCasts_S128_S1x128 (ix2 (0 : Fin 1) o) (ix1 o) (by
    rw [Shape.rowMajor_val_one, Shape.rowMajor_val_two]
    show o.val = 0 * 128 + o.val
    omega)

/-- The result array after the run is the specification's `resultK` of the five argument arrays as launched. -/
theorem final (c : Dev nD) : (dats m 0 c).arrAt 6 cfg0.N
    = resultK (m ((c : Thread nD τ).loc main_arg0)) (m ((c : Thread nD τ).loc main_arg1)) (m ((c : Thread nD τ).loc main_arg2))
        (m ((c : Thread nD τ).loc main_arg3)) (m ((c : Thread nD τ).loc main_arg4)) := by
  have h := (dats m 0 c).arrAt_eq_of_cover 6 (resultT (V m c main_arg0) (V m c main_arg1) (V m c main_call0_v0) (V m c main_call0_v1) (V m c main_call0_v2)) (fun t _ => flushed_eq m c t) cover6
  rw [h, V_main_arg0, V_main_arg1, V_wlT, V_wrT, V_brow]
  exact resultT_eq_resultK _ _ _ _ _ _ _ _ (fun d o => transpose_at _ d o) (fun d o => transpose_at _ d o) (fun o => biasrow_at _ o)

/-! ## The run, read -/

/-- Every weakly fair execution of the idealized kernel terminates with the result array at `resultK` of the
    arguments and the arguments unchanged. -/
theorem run : θ_run defs (onTc (τ := τ) (main (F := Ideal))) ⟨m, fun _ => 0, ρ⟩ fun r => ∀ c : Dev nD,
      r.2.mem ((c.tc : Thread nD τ).loc main_v0)
        = resultK (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 6).trans (final m c),
     ((h c).1 2).trans (((dats m 0 c).arrAt_in 2 rfl _).trans ((A_eq m c 2).trans (V_main_arg0 m c))),
     ((h c).1 0).trans (((dats m 0 c).arrAt_in 0 rfl _).trans ((A_eq m c 0).trans (V_main_arg1 m c))),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c)⟩) (run_main m ρ)

end Cert.KernelIdeal.Val

end
-- ==== Proof.RefValue.lean ====
/-
  The reference, index by index. Its nine host operations — the two matrix products with the adjacency and the first
  weight matrix, the bias broadcast down the rows, the product of the features with the second weight matrix, the
  two additions — compose to the specification's `result`: each product is the sum over the contracted axis, each
  transpose swaps the two coordinates (so `wlᵀ[d,o] = wl[o,d]`), each broadcast reads the bias at the column.
-/
import proofs.«146117_g21028159881243_cont_8to1_1723_11_alg».proof.Proof.Gen.ReferenceIdeal.Read
import proofs.«146117_g21028159881243_cont_8to1_1723_11_alg».proof.Proof.Spec

noncomputable section

namespace Cert.ReferenceIdeal.RefValue

open Cert.ReferenceIdeal Cert.ReferenceIdeal.Read Idealize.ShloMosaic Idealize.ShloMosaic.ValueIdx Cert.SageSpec
open scoped BigOperators

/-! The operations' composed index maps, as coordinates. -/
theorem idx_adj (i : S10000x128.Idx) (d : Fin 128) (s : Fin 10000) : lidx_main_v0 (lidx_main_v2 i d) s = ix2 (i 0) s :=
  funext fun a => Fin.ext (by match a with | ⟨0, _⟩ => rfl | ⟨1, _⟩ => rfl)
theorem idx_feat (i : S10000x128.Idx) (d : Fin 128) (s : Fin 10000) : ridx_main_v0 (lidx_main_v2 i d) s = ix2 s d :=
  funext fun a => Fin.ext (by match a with | ⟨0, _⟩ => rfl | ⟨1, _⟩ => rfl)
theorem idx_wl (i : S10000x128.Idx) (d : Fin 128) : idx_main_v1 (ridx_main_v2 i d) = ix2 (i 1) d :=
  funext fun a => Fin.ext (by match a with | ⟨0, _⟩ => rfl | ⟨1, _⟩ => rfl)
theorem idx_bias (i : S10000x128.Idx) : idx_main_v3 (idx_main_v4 i) = ix1 (i 1) :=
  funext fun a => Fin.ext (by match a with | ⟨0, _⟩ => rfl)
theorem idx_own (i : S10000x128.Idx) (d : Fin 128) : lidx_main_v7 i d = ix2 (i 0) d :=
  funext fun a => Fin.ext (by match a with | ⟨0, _⟩ => rfl | ⟨1, _⟩ => rfl)
theorem idx_wr (i : S10000x128.Idx) (d : Fin 128) : idx_main_v6 (ridx_main_v7 i d) = ix2 (i 1) d :=
  funext fun a => Fin.ext (by match a with | ⟨0, _⟩ => rfl | ⟨1, _⟩ => rfl)

/-- The reference's last stage is the specification's `result` of the five argument arrays. -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v8 (F := Ideal) x0 x1 x2 x3 x4 = result x0 x1 x2 x3 x4 := by
  funext i
  rw [val_main_v8_apply, val_main_v5_apply, val_main_v2_apply, val_main_v4_apply, val_main_v3_apply, val_main_v7_apply]
  simp only [val_main_v0_apply, val_main_v1_apply, val_main_v6_apply, Ideal.addf_def, idx_adj, idx_feat, idx_wl, idx_bias, idx_own, idx_wr]
  rfl

end Cert.ReferenceIdeal.RefValue

end
-- ==== Proof.lean ====
/-
  A dense-adjacency SAGE convolution: out = (adj · x) · W_lᵀ + b + x · W_rᵀ, as one pallas_call over 25 blocks of 400
  result rows against the plain jnp reference.

  The kernel reads the adjacency matrix through two input windows, the even and the odd 200-row half of each block, so
  that one array stands behind two windows. Its frame is therefore proved by hand: the pipeline holds the adjacency
  matrix at two half shares, and the general frame run for input windows that share an array does the rest
  (Proof/LibFrameShared.lean). The body's triple, the proof data and the run are Proof/…Entry, …Body, …Run, once for
  the word-level program and once for the idealized one; the reference has no kernel and its frame is its generated
  run with the result dropped. The ideal pass rewrote nothing, so there is nothing to preserve.

  For the values: the idealized kernel's result array ends at `resultK` of the five arguments (Proof/IdealValue.lean
  over Proof/IdealPayload.lean), the reference's at `result` of them (Proof/RefValue.lean over its generated read-at-an-
  index lemmas), and the two differ only in the order in which the three terms of each entry are added
  (Proof/Spec.lean): equal on the extended reals with no appeal to finiteness.
-/
import proofs.«146117_g21028159881243_cont_8to1_1723_11_alg».proof.Defs
import proofs.«146117_g21028159881243_cont_8to1_1723_11_alg».proof.Proof.Gen.Kernel
import proofs.«146117_g21028159881243_cont_8to1_1723_11_alg».proof.Proof.Gen.KernelIdeal
import proofs.«146117_g21028159881243_cont_8to1_1723_11_alg».proof.Proof.Gen.ReferenceIdeal
import proofs.«146117_g21028159881243_cont_8to1_1723_11_alg».proof.Proof.Gen.Pre_finite_inputs
import proofs.«146117_g21028159881243_cont_8to1_1723_11_alg».proof.Proof.BitsRun
import proofs.«146117_g21028159881243_cont_8to1_1723_11_alg».proof.Proof.IdealValue
import proofs.«146117_g21028159881243_cont_8to1_1723_11_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the same result array: the kernel's
    `(lin + root) + b` is the reference's `(lin + b) + root`, entry by entry. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq, ← Cert.SageSpec.resultK_eq_result,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
